-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v91)) (v1 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S100000x64 : Shape := ⟨2, ![100000, 64]⟩
abbrev S50000x64 : Shape := ⟨2, ![50000, 64]⟩
abbrev S100000x256 : Shape := ⟨2, ![100000, 256]⟩
abbrev S50000x256 : Shape := ⟨2, ![50000, 256]⟩
abbrev S64x256 : Shape := ⟨2, ![64, 256]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S100000x256 : S_.BroadcastsInDim S100000x256 (![] : Fin 0 → Fin S100000x256.rank)
  reducesTo_S100000x256_S_d0_1 : S100000x256.ReducesTo [0, 1] S_
  bcast_S_S50000x256 : S_.BroadcastsInDim S50000x256 (![] : Fin 0 → Fin S50000x256.rank)
  reducesTo_S50000x256_S_d0_1 : S50000x256.ReducesTo [0, 1] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_arg5 : FVec F S64x256 .f32) (main_arg6 : FVec F S64x256 .f32) (main_v13 : IVec S_ 1) (main_v16 : IVec S50000x256 1) : IVec S_ 1 :=
  let main_c_5 : IVec S_ 1 := constantI S_ 1 1#1
  let main_v17 : IVec S_ 1 := (fun x v => Host.reduce IntOp.andi x v reducesTo_S50000x256_S_d0_1 h_S_) main_v16 main_c_5
  let main_v18 : IVec S_ 1 := andi main_v13 main_v17
  let main_v19 : FVec F S64x256 .f32 := Host.absf main_arg5
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x256 .f32 := Host.absf main_arg6
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  main_v28

def fn {F : FTy → Type} [FloatOps F] (main_arg0 : IVec S2x1000000 32) (main_arg1 : FVec F S100000x64 .f32) (main_arg2 : FVec F S50000x64 .f32) (main_arg3 : FVec F S100000x256 .f32) (main_arg4 : FVec F S50000x256 .f32) (main_arg5 : FVec F S64x256 .f32) (main_arg6 : FVec F S64x256 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S100000x256 .f32 := Host.absf main_arg3
  let main_cst_2 : FVec F S_ .f32 := constant S_ .f32 0x7F800000#32
  let main_v10 : FVec F S100000x256 .f32 := broadcastInDim S100000x256 ![] bcast_S_S100000x256 main_cst_2
  let main_v11 : IVec S100000x256 1 := cmpf .olt main_v9 main_v10
  let main_c_3 : IVec S_ 1 := constantI S_ 1 1#1
  let main_v12 : IVec S_ 1 := (fun x v => Host.reduce IntOp.andi x v reducesTo_S100000x256_S_d0_1 h_S_) main_v11 main_c_3
  let main_v13 : IVec S_ 1 := andi main_v8 main_v12
  let main_v14 : FVec F S50000x256 .f32 := Host.absf main_arg4
  let main_cst_4 : FVec F S_ .f32 := constant S_ .f32 0x7F800000#32
  let main_v15 : FVec F S50000x256 .f32 := broadcastInDim S50000x256 ![] bcast_S_S50000x256 main_cst_4
  let main_v16 : IVec S50000x256 1 := cmpf .olt main_v14 main_v15
  fn_part1 (F := F) main_arg5 main_arg6 main_v13 main_v16
-- ==== Kernel.lean ====
abbrev S2x1000000 : Shape := ⟨2, ![2, 1000000]⟩
abbrev S100000x64 : Shape := ⟨2, ![100000, 64]⟩
abbrev S50000x64 : Shape := ⟨2, ![50000, 64]⟩
abbrev S100000x256 : Shape := ⟨2, ![100000, 256]⟩
abbrev S50000x256 : Shape := ⟨2, ![50000, 256]⟩
abbrev S64x256 : Shape := ⟨2, ![64, 256]⟩
abbrev S1x1000000 : Shape := ⟨2, ![1, 1000000]⟩
abbrev S1000000 : Shape := ⟨1, ![1000000]⟩
abbrev S_ : Shape := ⟨0, ![]⟩
abbrev S150000 : Shape := ⟨1, ![150000]⟩
abbrev S1000000x1 : Shape := ⟨2, ![1000000, 1]⟩
abbrev S150000x64 : Shape := ⟨2, ![150000, 64]⟩
abbrev S1000000x64 : Shape := ⟨2, ![1000000, 64]⟩
abbrev S256x64 : Shape := ⟨2, ![256, 64]⟩
abbrev S5000x256 : Shape := ⟨2, ![5000, 256]⟩
abbrev S5000x64 : Shape := ⟨2, ![5000, 64]⟩

abbrev nBuf : Space → Nat
  | .hbm => 125
  | .vmem => 14
  | .smem => 0
  | _ => 0

abbrev bufTy : (tb : Table) → Fin (tcTables nBuf tb) → BufTy
  | .hbm, ⟨0, _⟩ => ⟨S2x1000000, .i32⟩
  | .hbm, ⟨1, _⟩ => ⟨S100000x64, .f32⟩
  | .hbm, ⟨2, _⟩ => ⟨S50000x64, .f32⟩
  | .hbm, ⟨3, _⟩ => ⟨S100000x256, .f32⟩
  | .hbm, ⟨4, _⟩ => ⟨S50000x256, .f32⟩
  | .hbm, ⟨5, _⟩ => ⟨S64x256, .f32⟩
  | .hbm, ⟨6, _⟩ => ⟨S64x256, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .f32⟩
  | .hbm, ⟨12, _⟩ => ⟨S1000000, .f32⟩
  | .hbm, ⟨13, _⟩ => ⟨S_, .f32⟩
  | .hbm, ⟨14, _⟩ => ⟨S150000, .f32⟩
  | .hbm, ⟨15, _⟩ => ⟨S1000000x1, .i32⟩
  | .hbm, ⟨16, _⟩ => ⟨S150000, .f32⟩
  | .hbm, ⟨17, _⟩ => ⟨S_, .f32⟩
  | .hbm, ⟨18, _⟩ => ⟨S150000, .f32⟩
  | .hbm, ⟨19, _⟩ => ⟨S150000, .i1⟩
  | .hbm, ⟨20, _⟩ => ⟨S_, .f32⟩
  | .hbm, ⟨21, _⟩ => ⟨S150000, .f32⟩
  | .hbm, ⟨22, _⟩ => ⟨S150000, .f32⟩
  | .hbm, ⟨23, _⟩ => ⟨S150000, .f32⟩
  | .hbm, ⟨24, _⟩ => ⟨S_, .f32⟩
  | .hbm, ⟨25, _⟩ => ⟨S_, .f32⟩
  | .hbm, ⟨26, _⟩ => ⟨S150000, .f32⟩
  | .hbm, ⟨27, _⟩ => ⟨S150000, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000, .f32⟩
  | .hbm, ⟨46, _⟩ => ⟨S1000000, .f32⟩
  | .hbm, ⟨47, _⟩ => ⟨S150000x64, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x64, .f32⟩
  | .hbm, ⟨57, _⟩ => ⟨S1000000x1, .f32⟩
  | .hbm, ⟨58, _⟩ => ⟨S1000000x64, .f32⟩
  | .hbm, ⟨59, _⟩ => ⟨S1000000x64, .f32⟩
  | .hbm, ⟨60, _⟩ => ⟨S_, .f32⟩
  | .hbm, ⟨61, _⟩ => ⟨S150000x64, .f32⟩
  | .hbm, ⟨62, _⟩ => ⟨S1000000x1, .i32⟩
  | .hbm, ⟨63, _⟩ => ⟨S150000x64, .f32⟩
  | .hbm, ⟨64, _⟩ => ⟨S150000x64, .f32⟩
  | .hbm, ⟨65, _⟩ => ⟨S_, .i32⟩
  | .hbm, ⟨66, _⟩ => ⟨S1000000, .i32⟩
  | .hbm, ⟨67, _⟩ => ⟨S1000000, .i1⟩
  | .hbm, ⟨68, _⟩ => ⟨S_, .i32⟩
  | .hbm, ⟨69, _⟩ => ⟨S1000000, .i32⟩
  | .hbm, ⟨70, _⟩ => ⟨S1000000, .i32⟩
  | .hbm, ⟨71, _⟩ => ⟨S1000000, .i32⟩
  | .hbm, ⟨72, _⟩ => ⟨S1000000x1, .i32⟩
  | .hbm, ⟨73, _⟩ => ⟨S1000000x64, .f32⟩
  | .hbm, ⟨74, _⟩ => ⟨S1000000x1, .f32⟩
  | .hbm, ⟨75, _⟩ => ⟨S1000000x64, .f32⟩
  | .hbm, ⟨76, _⟩ => ⟨S1000000x64, .f32⟩
  | .hbm, ⟨77, _⟩ => ⟨S_, .f32⟩
  | .hbm, ⟨78, _⟩ => ⟨S150000x64, .f32⟩
  | .hbm, ⟨79, _⟩ => ⟨S1000000x1, .i32⟩
  | .hbm, ⟨80, _⟩ => ⟨S150000x64, .f32⟩
  | .hbm, ⟨81, _⟩ => ⟨S150000x64, .f32⟩
  | .hbm, ⟨82, _⟩ => ⟨S_, .i32⟩
  | .hbm, ⟨83, _⟩ => ⟨S1000000, .i32⟩
  | .hbm, ⟨84, _⟩ => ⟨S1000000, .i1⟩
  | .hbm, ⟨85, _⟩ => ⟨S_, .i32⟩
  | .hbm, ⟨86, _⟩ => ⟨S1000000, .i32⟩
  | .hbm, ⟨87, _⟩ => ⟨S1000000, .i32⟩
  | .hbm, ⟨88, _⟩ => ⟨S1000000, .i32⟩
  | .hbm, ⟨89, _⟩ => ⟨S1000000x1, .i32⟩
  | .hbm, ⟨90, _⟩ => ⟨S1000000x64, .f32⟩
  | .hbm, ⟨91, _⟩ => ⟨S1000000x1, .f32⟩
  | .hbm, ⟨92, _⟩ => ⟨S1000000x64, .f32⟩
  | .hbm, ⟨93, _⟩ => ⟨S1000000x64, .f32⟩
  | .hbm, ⟨94, _⟩ => ⟨S_, .f32⟩
  | .hbm, ⟨95, _⟩ => ⟨S150000x64, .f32⟩
  | .hbm, ⟨96, _⟩ => ⟨S1000000x1, .i32⟩
  | .hbm, ⟨97, _⟩ => ⟨S150000x64, .f32⟩
  | .hbm, ⟨98, _⟩ => ⟨S150000x64, .f32⟩
  | .hbm, ⟨99, _⟩ => ⟨S_, .i32⟩
  | .hbm, ⟨100, _⟩ => ⟨S1000000, .i32⟩
  | .hbm, ⟨101, _⟩ => ⟨S1000000, .i1⟩
  | .hbm, ⟨102, _⟩ => ⟨S_, .i32⟩
  | .hbm, ⟨103, _⟩ => ⟨S1000000, .i32⟩
  | .hbm, ⟨104, _⟩ => ⟨S1000000, .i32⟩
  | .hbm, ⟨105, _⟩ => ⟨S1000000, .i32⟩
  | .hbm, ⟨106, _⟩ => ⟨S1000000x1, .i32⟩
  | .hbm, ⟨107, _⟩ => ⟨S1000000x64, .f32⟩
  | .hbm, ⟨108, _⟩ => ⟨S1000000x1, .f32⟩
  | .hbm, ⟨109, _⟩ => ⟨S1000000x64, .f32⟩
  | .hbm, ⟨110, _⟩ => ⟨S1000000x64, .f32⟩
  | .hbm, ⟨111, _⟩ => ⟨S_, .f32⟩
  | .hbm, ⟨112, _⟩ => ⟨S150000x64, .f32⟩
  | .hbm, ⟨113, _⟩ => ⟨S1000000x1, .i32⟩
  | .hbm, ⟨114, _⟩ => ⟨S150000x64, .f32⟩
  | .hbm, ⟨115, _⟩ => ⟨S150000x64, .f32⟩
  | .hbm, ⟨116, _⟩ => ⟨S_, .f32⟩
  | .hbm, ⟨117, _⟩ => ⟨S150000x64, .f32⟩
  | .hbm, ⟨118, _⟩ => ⟨S150000x64, .f32⟩
  | .hbm, ⟨119, _⟩ => ⟨S100000x64, .f32⟩
  | .hbm, ⟨120, _⟩ => ⟨S50000x64, .f32⟩
  | .hbm, ⟨121, _⟩ => ⟨S256x64, .f32⟩
  | .hbm, ⟨122, _⟩ => ⟨S100000x64, .f32⟩
  | .hbm, ⟨123, _⟩ => ⟨S256x64, .f32⟩
  | .hbm, ⟨124, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x256, .f32⟩
  | .local _ .vmem, ⟨8, _⟩ => ⟨S5000x256, .f32⟩
  | .local _ .vmem, ⟨9, _⟩ => ⟨S256x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | _, _ => ⟨S2x1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_c_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_13 : Ref sig .tc := ⟨.hbm, 82, rfl⟩
abbrev main_v58 : Ref sig .tc := ⟨.hbm, 83, rfl⟩
abbrev main_v59 : Ref sig .tc := ⟨.hbm, 84, rfl⟩
abbrev main_c_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_16 : Ref sig .tc := ⟨.hbm, 99, rfl⟩
abbrev main_v72 : Ref sig .tc := ⟨.hbm, 100, rfl⟩
abbrev main_v73 : Ref sig .tc := ⟨.hbm, 101, rfl⟩
abbrev main_c_17 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_18 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_19 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S150000 : S_.BroadcastsInDim S150000 (![] : Fin 0 → Fin S150000.rank)
  bcast_S1000000_S1000000x1_0 : S1000000.BroadcastsInDim S1000000x1 (![0] : Fin 1 → Fin S1000000x1.rank)
  concatenates_S100000x64_S50000x64_S150000x64_d0 : Shape.Concatenates [S100000x64, S50000x64] S150000x64 0
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  transposes_S64x256_S256x64_1_0 : S64x256.Transposes [1, 0] S256x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  scatter_S150000_S1000000x1_S1000000_n_0_0_1_wf : ScatterDims.WF S150000 S1000000x1 S1000000 [] [0] [0] 1
  gather_S150000_S1000000x1_S1000000_n_0_n_n_0_1_1_wf : GatherDims.WF S150000 S1000000x1 S1000000 [] [0] [] [0] [] 1 ![1]
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S150000_S1000000x1_S1000000_n_0_0_1 : ScatterDims S150000 S1000000x1 S1000000 where
  updateWindowDims := []
  insertedWindowDims := [0]
  scatterDimsToOperandDims := [0]
  indexVectorDim := 1
  wf := scatter_S150000_S1000000x1_S1000000_n_0_0_1_wf
def gather_S150000_S1000000x1_S1000000_n_0_n_n_0_1_1 : GatherDims S150000 S1000000x1 S1000000 where
  offsetDims := []
  collapsedSliceDims := [0]
  operandBatchingDims := []
  startIndicesBatchingDims := []
  startIndexMap := [0]
  indexVectorDim := 1
  sliceSizes := ![1]
  wf := gather_S150000_S1000000x1_S1000000_n_0_n_n_0_1_1_wf
def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_arg3) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v90) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v88) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v91) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg4) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v92) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v89) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v93) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x1000000 : Shape := ⟨2, ![2, 1000000]⟩
abbrev S100000x64 : Shape := ⟨2, ![100000, 64]⟩
abbrev S50000x64 : Shape := ⟨2, ![50000, 64]⟩
abbrev S100000x256 : Shape := ⟨2, ![100000, 256]⟩
abbrev S50000x256 : Shape := ⟨2, ![50000, 256]⟩
abbrev S64x256 : Shape := ⟨2, ![64, 256]⟩
abbrev S1x1000000 : Shape := ⟨2, ![1, 1000000]⟩
abbrev S1000000 : Shape := ⟨1, ![1000000]⟩
abbrev S_ : Shape := ⟨0, ![]⟩
abbrev S150000 : Shape := ⟨1, ![150000]⟩
abbrev S1000000x1 : Shape := ⟨2, ![1000000, 1]⟩
abbrev S150000x64 : Shape := ⟨2, ![150000, 64]⟩
abbrev S1000000x64 : Shape := ⟨2, ![1000000, 64]⟩
abbrev S256x64 : Shape := ⟨2, ![256, 64]⟩

abbrev nBuf : Space → Nat
  | .hbm => 127
  | .vmem => 0
  | .smem => 0
  | _ => 0

abbrev bufTy : (tb : Table) → Fin (tcTables nBuf tb) → BufTy
  | .hbm, ⟨0, _⟩ => ⟨S2x1000000, .i32⟩
  | .hbm, ⟨1, _⟩ => ⟨S100000x64, .f32⟩
  | .hbm, ⟨2, _⟩ => ⟨S50000x64, .f32⟩
  | .hbm, ⟨3, _⟩ => ⟨S100000x256, .f32⟩
  | .hbm, ⟨4, _⟩ => ⟨S50000x256, .f32⟩
  | .hbm, ⟨5, _⟩ => ⟨S64x256, .f32⟩
  | .hbm, ⟨6, _⟩ => ⟨S64x256, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .f32⟩
  | .hbm, ⟨12, _⟩ => ⟨S1000000, .f32⟩
  | .hbm, ⟨13, _⟩ => ⟨S_, .f32⟩
  | .hbm, ⟨14, _⟩ => ⟨S150000, .f32⟩
  | .hbm, ⟨15, _⟩ => ⟨S1000000x1, .i32⟩
  | .hbm, ⟨16, _⟩ => ⟨S150000, .f32⟩
  | .hbm, ⟨17, _⟩ => ⟨S_, .f32⟩
  | .hbm, ⟨18, _⟩ => ⟨S150000, .f32⟩
  | .hbm, ⟨19, _⟩ => ⟨S150000, .i1⟩
  | .hbm, ⟨20, _⟩ => ⟨S_, .f32⟩
  | .hbm, ⟨21, _⟩ => ⟨S150000, .f32⟩
  | .hbm, ⟨22, _⟩ => ⟨S150000, .f32⟩
  | .hbm, ⟨23, _⟩ => ⟨S150000, .f32⟩
  | .hbm, ⟨24, _⟩ => ⟨S_, .f32⟩
  | .hbm, ⟨25, _⟩ => ⟨S_, .f32⟩
  | .hbm, ⟨26, _⟩ => ⟨S150000, .f32⟩
  | .hbm, ⟨27, _⟩ => ⟨S150000, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000, .f32⟩
  | .hbm, ⟨46, _⟩ => ⟨S1000000, .f32⟩
  | .hbm, ⟨47, _⟩ => ⟨S150000x64, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x64, .f32⟩
  | .hbm, ⟨57, _⟩ => ⟨S1000000x1, .f32⟩
  | .hbm, ⟨58, _⟩ => ⟨S1000000x64, .f32⟩
  | .hbm, ⟨59, _⟩ => ⟨S1000000x64, .f32⟩
  | .hbm, ⟨60, _⟩ => ⟨S_, .f32⟩
  | .hbm, ⟨61, _⟩ => ⟨S150000x64, .f32⟩
  | .hbm, ⟨62, _⟩ => ⟨S1000000x1, .i32⟩
  | .hbm, ⟨63, _⟩ => ⟨S150000x64, .f32⟩
  | .hbm, ⟨64, _⟩ => ⟨S150000x64, .f32⟩
  | .hbm, ⟨65, _⟩ => ⟨S_, .i32⟩
  | .hbm, ⟨66, _⟩ => ⟨S1000000, .i32⟩
  | .hbm, ⟨67, _⟩ => ⟨S1000000, .i1⟩
  | .hbm, ⟨68, _⟩ => ⟨S_, .i32⟩
  | .hbm, ⟨69, _⟩ => ⟨S1000000, .i32⟩
  | .hbm, ⟨70, _⟩ => ⟨S1000000, .i32⟩
  | .hbm, ⟨71, _⟩ => ⟨S1000000, .i32⟩
  | .hbm, ⟨72, _⟩ => ⟨S1000000x1, .i32⟩
  | .hbm, ⟨73, _⟩ => ⟨S1000000x64, .f32⟩
  | .hbm, ⟨74, _⟩ => ⟨S1000000x1, .f32⟩
  | .hbm, ⟨75, _⟩ => ⟨S1000000x64, .f32⟩
  | .hbm, ⟨76, _⟩ => ⟨S1000000x64, .f32⟩
  | .hbm, ⟨77, _⟩ => ⟨S_, .f32⟩
  | .hbm, ⟨78, _⟩ => ⟨S150000x64, .f32⟩
  | .hbm, ⟨79, _⟩ => ⟨S1000000x1, .i32⟩
  | .hbm, ⟨80, _⟩ => ⟨S150000x64, .f32⟩
  | .hbm, ⟨81, _⟩ => ⟨S150000x64, .f32⟩
  | .hbm, ⟨82, _⟩ => ⟨S_, .i32⟩
  | .hbm, ⟨83, _⟩ => ⟨S1000000, .i32⟩
  | .hbm, ⟨84, _⟩ => ⟨S1000000, .i1⟩
  | .hbm, ⟨85, _⟩ => ⟨S_, .i32⟩
  | .hbm, ⟨86, _⟩ => ⟨S1000000, .i32⟩
  | .hbm, ⟨87, _⟩ => ⟨S1000000, .i32⟩
  | .hbm, ⟨88, _⟩ => ⟨S1000000, .i32⟩
  | .hbm, ⟨89, _⟩ => ⟨S1000000x1, .i32⟩
  | .hbm, ⟨90, _⟩ => ⟨S1000000x64, .f32⟩
  | .hbm, ⟨91, _⟩ => ⟨S1000000x1, .f32⟩
  | .hbm, ⟨92, _⟩ => ⟨S1000000x64, .f32⟩
  | .hbm, ⟨93, _⟩ => ⟨S1000000x64, .f32⟩
  | .hbm, ⟨94, _⟩ => ⟨S_, .f32⟩
  | .hbm, ⟨95, _⟩ => ⟨S150000x64, .f32⟩
  | .hbm, ⟨96, _⟩ => ⟨S1000000x1, .i32⟩
  | .hbm, ⟨97, _⟩ => ⟨S150000x64, .f32⟩
  | .hbm, ⟨98, _⟩ => ⟨S150000x64, .f32⟩
  | .hbm, ⟨99, _⟩ => ⟨S_, .i32⟩
  | .hbm, ⟨100, _⟩ => ⟨S1000000, .i32⟩
  | .hbm, ⟨101, _⟩ => ⟨S1000000, .i1⟩
  | .hbm, ⟨102, _⟩ => ⟨S_, .i32⟩
  | .hbm, ⟨103, _⟩ => ⟨S1000000, .i32⟩
  | .hbm, ⟨104, _⟩ => ⟨S1000000, .i32⟩
  | .hbm, ⟨105, _⟩ => ⟨S1000000, .i32⟩
  | .hbm, ⟨106, _⟩ => ⟨S1000000x1, .i32⟩
  | .hbm, ⟨107, _⟩ => ⟨S1000000x64, .f32⟩
  | .hbm, ⟨108, _⟩ => ⟨S1000000x1, .f32⟩
  | .hbm, ⟨109, _⟩ => ⟨S1000000x64, .f32⟩
  | .hbm, ⟨110, _⟩ => ⟨S1000000x64, .f32⟩
  | .hbm, ⟨111, _⟩ => ⟨S_, .f32⟩
  | .hbm, ⟨112, _⟩ => ⟨S150000x64, .f32⟩
  | .hbm, ⟨113, _⟩ => ⟨S1000000x1, .i32⟩
  | .hbm, ⟨114, _⟩ => ⟨S150000x64, .f32⟩
  | .hbm, ⟨115, _⟩ => ⟨S150000x64, .f32⟩
  | .hbm, ⟨116, _⟩ => ⟨S_, .f32⟩
  | .hbm, ⟨117, _⟩ => ⟨S150000x64, .f32⟩
  | .hbm, ⟨118, _⟩ => ⟨S150000x64, .f32⟩
  | .hbm, ⟨119, _⟩ => ⟨S100000x64, .f32⟩
  | .hbm, ⟨120, _⟩ => ⟨S256x64, .f32⟩
  | .hbm, ⟨121, _⟩ => ⟨S100000x64, .f32⟩
  | .hbm, ⟨122, _⟩ => ⟨S100000x64, .f32⟩
  | .hbm, ⟨123, _⟩ => ⟨S50000x64, .f32⟩
  | .hbm, ⟨124, _⟩ => ⟨S256x64, .f32⟩
  | .hbm, ⟨125, _⟩ => ⟨S50000x64, .f32⟩
  | .hbm, ⟨126, _⟩ => ⟨S50000x64, .f32⟩
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_c_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_13 : Ref sig .tc := ⟨.hbm, 82, rfl⟩
abbrev main_v58 : Ref sig .tc := ⟨.hbm, 83, rfl⟩
abbrev main_v59 : Ref sig .tc := ⟨.hbm, 84, rfl⟩
abbrev main_c_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_16 : Ref sig .tc := ⟨.hbm, 99, rfl⟩
abbrev main_v72 : Ref sig .tc := ⟨.hbm, 100, rfl⟩
abbrev main_v73 : Ref sig .tc := ⟨.hbm, 101, rfl⟩
abbrev main_c_17 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_18 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_19 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S150000 : S_.BroadcastsInDim S150000 (![] : Fin 0 → Fin S150000.rank)
  bcast_S1000000_S1000000x1_0 : S1000000.BroadcastsInDim S1000000x1 (![0] : Fin 1 → Fin S1000000x1.rank)
  concatenates_S100000x64_S50000x64_S150000x64_d0 : Shape.Concatenates [S100000x64, S50000x64] S150000x64 0
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  slices_S150000x64_S100000x64_0_0 : S150000x64.Slices ![0, 0] S100000x64
  transposes_S64x256_S256x64_1_0 : S64x256.Transposes [1, 0] S256x64
  slices_S150000x64_S50000x64_100000_0 : S150000x64.Slices ![100000, 0] S50000x64
  scatter_S150000_S1000000x1_S1000000_n_0_0_1_wf : ScatterDims.WF S150000 S1000000x1 S1000000 [] [0] [0] 1
  gather_S150000_S1000000x1_S1000000_n_0_n_n_0_1_1_wf : GatherDims.WF S150000 S1000000x1 S1000000 [] [0] [] [0] [] 1 ![1]
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1
  dot_S100000x256_S256x64_S100000x64_1_0_0_1_n_n_wf : DotDims.WF S100000x256 S256x64 S100000x64 [1] [0] [0] [1] [] []
  dot_S50000x256_S256x64_S50000x64_1_0_0_1_n_n_wf : DotDims.WF S50000x256 S256x64 S50000x64 [1] [0] [0] [1] [] []

variable [Facts₀]

def scatter_S150000_S1000000x1_S1000000_n_0_0_1 : ScatterDims S150000 S1000000x1 S1000000 where
  updateWindowDims := []
  insertedWindowDims := [0]
  scatterDimsToOperandDims := [0]
  indexVectorDim := 1
  wf := scatter_S150000_S1000000x1_S1000000_n_0_0_1_wf
def gather_S150000_S1000000x1_S1000000_n_0_n_n_0_1_1 : GatherDims S150000 S1000000x1 S1000000 where
  offsetDims := []
  collapsedSliceDims := [0]
  operandBatchingDims := []
  startIndicesBatchingDims := []
  startIndexMap := [0]
  indexVectorDim := 1
  sliceSizes := ![1]
  wf := gather_S150000_S1000000x1_S1000000_n_0_n_n_0_1_1_wf
def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.Run.lean ====
/-
  The idealized kernel's run with its two result buffers named.

  The program is: a long stretch of host operations (the graph propagation and the transposition of the users'
  weights), the users' launch, one more host operation (the transposition of the items' weights), the items'
  launch. Running it segment by segment, the buffer contents at each boundary are a fold from the launch memory:
  a stretch of host operations applies them in order; a launch leaves each of its arrays at what its write-backs
  fold to, and every other buffer as it was. The final contents are the last stage `W6` of that fold, and every
  weakly fair execution terminates, without a fault, in a state whose unscoped buffers hold it. Here that fact is
  read at the two result buffers and at the seven argument buffers.
-/
import proofs.«125943_j3539053052414_1_alg».proof.Proof.Gen.KernelIdeal.Frame

set_option maxRecDepth 16384

noncomputable section

namespace Cert.KernelIdeal.Fuse

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the users' result and the items'
    result at the last stage of the fold and the arguments as launched. -/
theorem run_outputs : θ_run defs (onTc (τ := τ) (main (F := F))) ⟨m, fun _ => 0, ρ⟩ (fun r => ∀ c : Dev nD,
      r.2.mem ((c.tc : Thread nD τ).loc main_v91) = W6 m ρ c (Proc.devRef .tc main_v91)
      ∧ r.2.mem ((c.tc : Thread nD τ).loc main_v93) = W6 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v91 (by decide)),
       h c _ (mem_uc main_v93 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Fuse

end
-- ==== Proof.HostSide.lean ====
/-
  What the two launches find in their operand buffers.

  Before the users' launch the host computes the propagated embedding of all 150000 nodes from the edge list and the
  two embedding tables, cuts it into the users' rows and the items' rows, and transposes the users' weights. The
  users' launch reads the users' feature table (an argument, untouched), the transposed users' weights and the users'
  rows. Between the launches the host transposes the items' weights. The users' launch writes only its own result, so
  the items' launch finds the items' feature table as launched, the transposed items' weights, and the items' rows as
  they stood before the users' launch.
-/
import proofs.«125943_j3539053052414_1_alg».proof.Proof.Gen.KernelIdeal.Frame
import Idealize.ShloMosaic.Lib.StableHlo.Run

set_option maxRecDepth 16384

noncomputable section

namespace Cert.KernelIdeal.Fuse

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## At the users' launch -/

/-- The users' feature table is the argument. -/
theorem entry0_feat (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp

/-- The items' feature table is the argument. -/
theorem entry0_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp

/-- The items' weights are the argument. -/
theorem entry0_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp

/-- The users' weights, transposed. -/
theorem entry0_wT (c : Dev nD) : W3 m ρ c (Proc.devRef .tc main_v90)
    = transpose S256x64 [1, 0] (m ((c : Thread nD τ).loc main_arg5)) transposes_S64x256_S256x64_1_0 := by
  show StableHlo.after hostOps0_2 (StableHlo.after hostOps0_1 (StableHlo.after hostOps0 (W0 m ρ c))) (Proc.devRef .tc main_v90) = _
  after_results_simp

/-! ## At the items' launch -/

/-- The items' feature table is still the argument. -/
theorem entry1_feat (c : Dev nD) : W5 m ρ c (Proc.devRef .tc main_arg4) = m ((c : Thread nD τ).loc main_arg4) := by
  show StableHlo.after hostOps1 (W4 m ρ c) (Proc.devRef .tc main_arg4) = _
  after_results
  rw [W4_of_ne m ρ c main_arg4 (by decide)]
  exact entry0_arg4 m ρ c

/-- The items' weights, transposed. -/
theorem entry1_wT (c : Dev nD) : W5 m ρ c (Proc.devRef .tc main_v92)
    = transpose S256x64 [1, 0] (m ((c : Thread nD τ).loc main_arg6)) transposes_S64x256_S256x64_1_0 := by
  show StableHlo.after hostOps1 (W4 m ρ c) (Proc.devRef .tc main_v92) = _
  after_results
  rw [W4_of_ne m ρ c main_arg6 (by decide), entry0_arg6 m ρ c]

/-- The items' rows of the propagated embedding are what the host left before the users' launch. -/
theorem entry1_emb (c : Dev nD) : W5 m ρ c (Proc.devRef .tc main_v89) = W3 m ρ c (Proc.devRef .tc main_v89) := by
  have step : ∀ X : Valuation τ sig (Elt F), StableHlo.after hostOps1 X (Proc.devRef .tc main_v89) = X (Proc.devRef .tc main_v89) := by
    intro X; after_results
  exact (step (W4 m ρ c)).trans (W4_of_ne m ρ c main_v89 (by decide))

end Cert.KernelIdeal.Fuse

end
-- ==== Proof.LibDot.lean ====
/-
  A two-axis matrix product read at an index, at the extended reals. For dimension numbers that contract the
  left operand's second axis with the right operand's first and have no batch axis, the kernel's matrix product into
  a zero accumulator and the host's general dot product are both, at row `p` and column `q`, the sum over the
  contracted coordinate `k` of the left operand at `(p, k)` times the right operand at `(k, q)`.
-/
import Idealize.ShloMosaic.PureOps.Ideal.Laws
import Idealize.ShloMosaic.Lib.ValueIdx

noncomputable section

open scoped BigOperators

namespace Cert.LibDot

open Idealize.ShloMosaic Idealize.ShloMosaic.ValueIdx

variable {A K B : ℕ} {φ₁ φ₂ : FTy}

/-- Reading an index at two equal positions gives equal coordinates. -/
private theorem coord_congr {s : Shape} (j : s.Idx) (a b : Nat) (ha : a < s.rank) (hb : b < s.rank) (h : a = b) :
    (j ⟨a, ha⟩).val = (j ⟨b, hb⟩).val := by subst h; rfl

/-- The left operand's index has the output's row. -/
theorem lhsIdx_row (d : DotDims ⟨2, ![A, K]⟩ ⟨2, ![K, B]⟩ ⟨2, ![A, B]⟩)
    (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's index has the output's column. -/
theorem rhsIdx_col (d : DotDims ⟨2, ![A, K]⟩ ⟨2, ![K, B]⟩ ⟨2, ![A, B]⟩)
    (hlb : d.lhsBatch = []) (hln : d.lhsNonContracting = [0])
    (hrb : d.rhsBatch = []) (hrn : d.rhsNonContracting = [1])
    (j : (⟨2, ![A, B]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction sum re-indexed by the contracted coordinate. -/
theorem plain_sum (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (l : FVec Ideal ⟨2, ![A, K]⟩ φ₁) (r : FVec Ideal ⟨2, ![K, B]⟩ φ₂) (p : Fin A) (q : Fin B) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhsIdx_col d hlb hln hrb hrn _ _)
  rw [el, er]

/-- The kernel's matrix product into a zero accumulator, at `(p, q)`. -/
theorem matmul_zero_apply (d : DotDims ⟨2, ![A, K]⟩ ⟨2, ![K, B]⟩ ⟨2, ![A, B]⟩) (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (l : FVec Ideal ⟨2, ![A, K]⟩ φ₁) (r : FVec Ideal ⟨2, ![K, B]⟩ φ₂) (p : Fin A) (q : Fin B) :
    matmul d prec l r (constant (F := Ideal) ⟨2, ![A, B]⟩ .f32 0x00000000#32) (ix2 p q) = ∑ k : Fin K, l (ix2 p k) * r (ix2 k q) := by
  simp only [matmul]
  rw [Ideal.matmul_constant_zero_apply]
  exact plain_sum d hlb hln hlc hrb hrn hrc hr hs l r p q

/-- The host's general dot product, at `(p, q)`. -/
theorem dotGeneral_apply (d : DotDims ⟨2, ![A, K]⟩ ⟨2, ![K, B]⟩ ⟨2, ![A, B]⟩) (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (l : FVec Ideal ⟨2, ![A, K]⟩ φ₁) (r : FVec Ideal ⟨2, ![K, B]⟩ φ₂) (p : Fin A) (q : Fin B) :
    Host.dotGeneral d prec l r (ix2 p q) = ∑ k : Fin K, l (ix2 p k) * r (ix2 k q) := by
  simp only [Host.dotGeneral]
  rw [Ideal.dotGeneral_apply]
  exact plain_sum d hlb hln hlc hrb hrn hrc hr hs l r p q

end Cert.LibDot

end
-- ==== Proof.Payload.lean ====
/-
  One grid point of the projection kernel, read at the extended reals.

  The body takes a block of 5000 rows of the feature table (5000 x 256), the whole transposed weight matrix
  (256 x 64) and the matching block of the propagated embedding (5000 x 64), and stores

      embedding block + (feature block) * (transposed weights).

  Before the product both factors change float format; on the extended reals a change of format is the identity.
  The product is accumulated into zero, so at row p and column q it is the plain sum over the contracted
  coordinate k. Hence the stored value at (p, q) is

      emb (p, q) + sum over k < 256 of feat (p, k) * wT (k, q).

  The program launches this body twice (once over the users' rows, once over the items' rows); the two printed
  bodies are the same text, so the same statement is proved for each.
-/
import proofs.«125943_j3539053052414_1_alg».proof.Proof.Gen.KernelIdeal.Skeleton
import proofs.«125943_j3539053052414_1_alg».proof.Proof.LibDot
import Idealize.ShloMosaic.Lib.Pipeline.Value
import Idealize.ShloMosaic.Lib.ValueIdx

noncomputable section

open scoped BigOperators

namespace Cert.KernelIdeal.Fuse

open Idealize.ShloMosaic Idealize.ShloMosaic.ValueIdx Cert.KernelIdeal Cert.KernelIdeal.Gen

/-- The users' launch: the value stored at row `p`, column `q` of a block. -/
theorem pay0_apply (x0 : Vec Ideal S5000x256 .f32) (x1 : Vec Ideal S256x64 .f32) (x2 : Vec Ideal S5000x64 .f32)
    (p : Fin 5000) (q : Fin 64) :
    k0_pay1 (F := Ideal) x0 x1 x2 (ix2 p q) = x2 (ix2 p q) + ∑ k : Fin 256, x0 (ix2 p k) * x1 (ix2 k q) := by
  unfold k0_pay1
  rw [addf_apply, shapeCast_self, shapeCast_self]
  rw [Cert.LibDot.matmul_zero_apply dot_S5000x256_S256x64_S5000x64_1_0_0_1_n_n none rfl rfl rfl rfl rfl rfl rfl rfl]
  rfl

/-- The items' launch: the same body, the same value. -/
theorem pay1_apply (x0 : Vec Ideal S5000x256 .f32) (x1 : Vec Ideal S256x64 .f32) (x2 : Vec Ideal S5000x64 .f32)
    (p : Fin 5000) (q : Fin 64) :
    k1_pay1 (F := Ideal) x0 x1 x2 (ix2 p q) = x2 (ix2 p q) + ∑ k : Fin 256, x0 (ix2 p k) * x1 (ix2 k q) := by
  unfold k1_pay1
  rw [addf_apply, shapeCast_self, shapeCast_self]
  rw [Cert.LibDot.matmul_zero_apply dot_S5000x256_S256x64_S5000x64_1_0_0_1_n_n none rfl rfl rfl rfl rfl rfl rfl rfl]
  rfl

end Cert.KernelIdeal.Fuse

end
-- ==== Proof.Spec.lean ====
/-
  The result of one projection, as a whole array and read at an index.

  For an embedding table `emb` (A x 64), a feature table `feat` (A x 256) and transposed weights `wT` (256 x 64)
  the result is  emb + feat * wT : at row P and column Q,

      emb (P, Q) + sum over k < 256 of feat (P, k) * wT (k, Q).

  It is written with the host's general dot product, which is how the reference program computes it; on the
  extended reals that product at (P, Q) is the plain sum over the contracted coordinate. There are two instances,
  the users' (A = 100000) and the items' (A = 50000).
-/
import proofs.«125943_j3539053052414_1_alg».proof.ReferenceIdeal
import proofs.«125943_j3539053052414_1_alg».proof.Proof.LibDot
import Idealize.ShloMosaic.Lib.ValueIdx

noncomputable section

open scoped BigOperators

namespace Cert.Fuse

open Idealize.ShloMosaic Idealize.ShloMosaic.ValueIdx

variable [Cert.ReferenceIdeal.Facts]

/-- The users' result: embedding rows plus features times transposed weights. -/
def usersOut (emb : FVec Ideal ⟨2, ![100000, 64]⟩ .f32) (feat : FVec Ideal ⟨2, ![100000, 256]⟩ .f32)
    (wT : FVec Ideal ⟨2, ![256, 64]⟩ .f32) : FVec Ideal ⟨2, ![100000, 64]⟩ .f32 :=
  addf emb (Host.dotGeneral Cert.ReferenceIdeal.dot_S100000x256_S256x64_S100000x64_1_0_0_1_n_n none feat wT)

/-- The items' result. -/
def itemsOut (emb : FVec Ideal ⟨2, ![50000, 64]⟩ .f32) (feat : FVec Ideal ⟨2, ![50000, 256]⟩ .f32)
    (wT : FVec Ideal ⟨2, ![256, 64]⟩ .f32) : FVec Ideal ⟨2, ![50000, 64]⟩ .f32 :=
  addf emb (Host.dotGeneral Cert.ReferenceIdeal.dot_S50000x256_S256x64_S50000x64_1_0_0_1_n_n none feat wT)

theorem usersOut_apply (emb : FVec Ideal ⟨2, ![100000, 64]⟩ .f32) (feat : FVec Ideal ⟨2, ![100000, 256]⟩ .f32)
    (wT : FVec Ideal ⟨2, ![256, 64]⟩ .f32) (P : Fin 100000) (Q : Fin 64) :
    usersOut emb feat wT (ix2 P Q) = emb (ix2 P Q) + ∑ k : Fin 256, feat (ix2 P k) * wT (ix2 k Q) := by
  unfold usersOut
  rw [addf_apply, Cert.LibDot.dotGeneral_apply Cert.ReferenceIdeal.dot_S100000x256_S256x64_S100000x64_1_0_0_1_n_n none rfl rfl rfl rfl rfl rfl rfl rfl]

theorem itemsOut_apply (emb : FVec Ideal ⟨2, ![50000, 64]⟩ .f32) (feat : FVec Ideal ⟨2, ![50000, 256]⟩ .f32)
    (wT : FVec Ideal ⟨2, ![256, 64]⟩ .f32) (P : Fin 50000) (Q : Fin 64) :
    itemsOut emb feat wT (ix2 P Q) = emb (ix2 P Q) + ∑ k : Fin 256, feat (ix2 P k) * wT (ix2 k Q) := by
  unfold itemsOut
  rw [addf_apply, Cert.LibDot.dotGeneral_apply Cert.ReferenceIdeal.dot_S50000x256_S256x64_S50000x64_1_0_0_1_n_n none rfl rfl rfl rfl rfl rfl rfl rfl]

/-- One element of one block. If a block of the embedding rows, a block of the feature table and the transposed weights
    read, at block row `p`, what the whole arrays read at row `P`, then the block's sum at `(p, q)` is the whole
    arrays' sum at `(P, q)`. -/
theorem point_eq {A : ℕ} (emb : FVec Ideal ⟨2, ![A, 64]⟩ .f32) (feat : FVec Ideal ⟨2, ![A, 256]⟩ .f32)
    (wT : FVec Ideal ⟨2, ![256, 64]⟩ .f32)
    (x0 : FVec Ideal ⟨2, ![5000, 256]⟩ .f32) (x1 : FVec Ideal ⟨2, ![256, 64]⟩ .f32) (x2 : FVec Ideal ⟨2, ![5000, 64]⟩ .f32)
    (P : Fin A) (p : Fin 5000) (q : Fin 64)
    (h2 : x2 (ix2 p q) = emb (ix2 P q)) (h0 : ∀ k : Fin 256, x0 (ix2 p k) = feat (ix2 P k))
    (h1 : ∀ k : Fin 256, x1 (ix2 k q) = wT (ix2 k q)) :
    x2 (ix2 p q) + ∑ k : Fin 256, x0 (ix2 p k) * x1 (ix2 k q)
      = emb (ix2 P q) + ∑ k : Fin 256, feat (ix2 P k) * wT (ix2 k q) := by
  rw [h2]
  refine congrArg _ (Finset.sum_congr rfl fun k _ => ?_)
  rw [h0 k, h1 k]

end Cert.Fuse

end
-- ==== Proof.UsersBlocks.lean ====
/-
  The users' launch: from what each grid point writes back to the whole result array.

  The grid has 20 points; point t works on rows 5000 t ... 5000 t + 4999. Its block of the feature table and its
  block of the embedding rows sit at the same rows as the block of the result it writes; the transposed weights are
  one block, the whole matrix, at every point. So what point t writes back at row p, column q of its block,

      emb block (p, q) + sum over k of feat block (p, k) * wT (k, q),

  is the projection's value at row 5000 t + p, column q of the whole arrays: block t of the projection. The 20
  blocks tile the 100000 rows (row r is in block r / 5000), so after the launch the result array is the projection of
  the arrays the launch found.
-/
import proofs.«125943_j3539053052414_1_alg».proof.Proof.Gen.KernelIdeal.Frame
import proofs.«125943_j3539053052414_1_alg».proof.Proof.Gen.ReferenceIdeal
import proofs.«125943_j3539053052414_1_alg».proof.Proof.Payload
import proofs.«125943_j3539053052414_1_alg».proof.Proof.Spec
import Idealize.ShloMosaic.Lib.Pipeline.Value
import Idealize.ShloMosaic.Lib.ValueIdx

set_option maxRecDepth 16384

noncomputable section

open scoped BigOperators

namespace Cert.KernelIdeal.Fuse

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- A block that starts at the origin. -/
theorem origin0 : (![0, 0] : Fin 2 → Nat) = fun _ => 0 := funext fun a => by fin_cases a <;> rfl

/-- The printed index maps over the grid: the feature block and the embedding block move with the result block
    along the rows; every block starts at column 0; the weights' block is the whole matrix. -/
theorem idx0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) < 20 :=
  (by decide +kernel : ∀ t : Fin grid0.N, _)

/-- Every block of rows is some point's. -/
theorem onto0 : ∀ b : Fin 20, ∃ t : Fin cfg0.N, win0_3.index t = ![b.val, 0] :=
  (by decide +kernel : ∀ b : Fin 20, ∃ t : Fin grid0.N, win0_3.index t = ![b.val, 0])

/-- What point `t` writes back is block `t` of the projection of the arrays the launch found. -/
theorem flushed0_eq (c : Dev nD) (t : Fin cfg0.N) :
    (dat0 V c).flushed 3 t = ((cfg0.win 3).blk t).view.read (Elt Ideal)
      (Cert.Fuse.usersOut (V c main_v88) (V c main_arg3) (V c main_v90)) := by
  show (cfg0.win 3).cut (grid0.coords t) ((dat0 V c).after 3 t) = _
  rw [after0_3]
  unfold out0_3
  rw [View.canon_unit_zero origin0]
  simp only [View.ld_unit_zero (S := S5000x256) origin0, View.ld_unit_zero (S := S256x64) origin0, View.ld_unit_zero (S := S5000x64) origin0]
  obtain ⟨e00, e01, e10, e11, e20, e21, e31, e30⟩ := idx0 t
  funext j
  obtain ⟨p, q, rfl⟩ : ∃ (p : Fin 5000) (q : Fin 64), j = ix2 p q := ⟨j 0, j 1, eq_ix2 j⟩
  have hp : p.val < 5000 := p.isLt
  have hq : q.val < 64 := q.isLt
  -- the row of the whole array this block row is
  have hP : win0_3.index t (0 : Fin 2) * 5000 + p.val < 100000 := by omega
  -- where the result block's element sits in the result array
  have h3 : ((cfg0.win 3).blk t).view.emb (ix2 p q) = ix2 (⟨win0_3.index t (0 : Fin 2) * 5000 + p.val, hP⟩ : Fin 100000) q := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 64 + 1 * q.val = q.val; omega
  -- where the embedding block's element sits
  have h2 : ((cfg0.win 2).blk t).view.emb (ix2 p q) = ix2 (⟨win0_3.index t (0 : Fin 2) * 5000 + p.val, hP⟩ : Fin 100000) q := by
    funext a; apply Fin.ext
    match a with
    | ⟨0, _⟩ => show win0_2.index t (0 : Fin 2) * 5000 + 1 * p.val = win0_3.index t (0 : Fin 2) * 5000 + p.val; omega
    | ⟨1, _⟩ => show win0_2.index t (1 : Fin 2) * 64 + 1 * q.val = q.val; omega
  -- where the feature block's elements sit
  have h0 : ∀ k : Fin 256, ((cfg0.win 0).blk t).view.emb (ix2 p k) = ix2 (⟨win0_3.index t (0 : Fin 2) * 5000 + p.val, hP⟩ : Fin 100000) k := by
    intro k; funext a; apply Fin.ext
    match a with
    | ⟨0, _⟩ => show win0_0.index t (0 : Fin 2) * 5000 + 1 * p.val = win0_3.index t (0 : Fin 2) * 5000 + p.val; omega
    | ⟨1, _⟩ => show win0_0.index t (1 : Fin 2) * 256 + 1 * k.val = k.val; omega
  -- the weights' block is the whole matrix
  have h1 : ∀ k : Fin 256, ((cfg0.win 1).blk t).view.emb (ix2 k q) = ix2 k q := by
    intro k; funext a; apply Fin.ext
    match a with
    | ⟨0, _⟩ => show win0_1.index t (0 : Fin 2) * 256 + 1 * k.val = k.val; omega
    | ⟨1, _⟩ => show win0_1.index t (1 : Fin 2) * 64 + 1 * q.val = q.val; omega
  show k0_pay1 (F := Ideal) (iblk0 V c 0 t) (iblk0 V c 1 t) (iblk0 V c 2 t) (ix2 p q)
      = Cert.Fuse.usersOut (V c main_v88) (V c main_arg3) (V c main_v90) (((cfg0.win 3).blk t).view.emb (ix2 p q))
  rw [h3, Cert.Fuse.usersOut_apply]
  refine (pay0_apply (iblk0 V c 0 t) (iblk0 V c 1 t) (iblk0 V c 2 t) p q).trans ?_
  refine Cert.Fuse.point_eq (V c main_v88) (V c main_arg3) (V c main_v90) (iblk0 V c 0 t) (iblk0 V c 1 t) (iblk0 V c 2 t)
    ⟨win0_3.index t (0 : Fin 2) * 5000 + p.val, hP⟩ p q ?_ ?_ ?_
  · show V c main_v88 (((cfg0.win 2).blk t).view.emb (ix2 p q)) = _
    rw [h2]
  · intro k
    show V c main_arg3 (((cfg0.win 0).blk t).view.emb (ix2 p k)) = _
    rw [h0 k]
  · intro k
    show V c main_v90 (((cfg0.win 1).blk t).view.emb (ix2 k q)) = _
    rw [h1 k]

/-- An index of the result array is in point `t`'s block iff each coordinate is in the block's range. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v91).slice (win0_3.rect t)).set ↔ _
  rw [View.set_slice_whole, Rect.mem_set_unit]
  exact Iff.rfl

/-- The blocks tile the rows: every index is in some point's block. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- After the launch the result array is the projection of the arrays the launch found. -/
theorem final0 (c : Dev nD) :
    (dat0 V c).arrAt 3 cfg0.N = Cert.Fuse.usersOut (V c main_v88) (V c main_arg3) (V c main_v90) :=
  (dat0 V c).arrAt_eq_of_cover 3 _ (fun t _ => flushed0_eq V c t) (cover0)

end Cert.KernelIdeal.Fuse

end
-- ==== Proof.ItemsBlocks.lean ====
/-
  The items' launch: from what each grid point writes back to the whole result array.

  The grid has 10 points; point t works on rows 5000 t ... 5000 t + 4999. Its block of the feature table and its
  block of the embedding rows sit at the same rows as the block of the result it writes; the transposed weights are
  one block, the whole matrix, at every point. So what point t writes back at row p, column q of its block,

      emb block (p, q) + sum over k of feat block (p, k) * wT (k, q),

  is the projection's value at row 5000 t + p, column q of the whole arrays: block t of the projection. The 10
  blocks tile the 50000 rows (row r is in block r / 5000), so after the launch the result array is the projection of
  the arrays the launch found.
-/
import proofs.«125943_j3539053052414_1_alg».proof.Proof.Gen.KernelIdeal.Frame
import proofs.«125943_j3539053052414_1_alg».proof.Proof.Gen.ReferenceIdeal
import proofs.«125943_j3539053052414_1_alg».proof.Proof.Payload
import proofs.«125943_j3539053052414_1_alg».proof.Proof.Spec
import Idealize.ShloMosaic.Lib.Pipeline.Value
import Idealize.ShloMosaic.Lib.ValueIdx

set_option maxRecDepth 16384

noncomputable section

open scoped BigOperators

namespace Cert.KernelIdeal.Fuse

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- A block that starts at the origin. -/
theorem origin1 : (![0, 0] : Fin 2 → Nat) = fun _ => 0 := funext fun a => by fin_cases a <;> rfl

/-- The printed index maps over the grid: the feature block and the embedding block move with the result block
    along the rows; every block starts at column 0; the weights' block is the whole matrix. -/
theorem idx1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (1 : Fin 2) = 0 ∧ win1_3.index t (0 : Fin 2) < 10 :=
  (by decide +kernel : ∀ t : Fin grid1.N, _)

/-- Every block of rows is some point's. -/
theorem onto1 : ∀ b : Fin 10, ∃ t : Fin cfg1.N, win1_3.index t = ![b.val, 0] :=
  (by decide +kernel : ∀ b : Fin 10, ∃ t : Fin grid1.N, win1_3.index t = ![b.val, 0])

/-- What point `t` writes back is block `t` of the projection of the arrays the launch found. -/
theorem flushed1_eq (c : Dev nD) (t : Fin cfg1.N) :
    (dat1 V c).flushed 3 t = ((cfg1.win 3).blk t).view.read (Elt Ideal)
      (Cert.Fuse.itemsOut (V c main_v89) (V c main_arg4) (V c main_v92)) := by
  show (cfg1.win 3).cut (grid1.coords t) ((dat1 V c).after 3 t) = _
  rw [after1_3]
  unfold out1_3
  rw [View.canon_unit_zero origin1]
  simp only [View.ld_unit_zero (S := S5000x256) origin1, View.ld_unit_zero (S := S256x64) origin1, View.ld_unit_zero (S := S5000x64) origin1]
  obtain ⟨e00, e01, e10, e11, e20, e21, e31, e30⟩ := idx1 t
  funext j
  obtain ⟨p, q, rfl⟩ : ∃ (p : Fin 5000) (q : Fin 64), j = ix2 p q := ⟨j 0, j 1, eq_ix2 j⟩
  have hp : p.val < 5000 := p.isLt
  have hq : q.val < 64 := q.isLt
  -- the row of the whole array this block row is
  have hP : win1_3.index t (0 : Fin 2) * 5000 + p.val < 50000 := by omega
  -- where the result block's element sits in the result array
  have h3 : ((cfg1.win 3).blk t).view.emb (ix2 p q) = ix2 (⟨win1_3.index t (0 : Fin 2) * 5000 + p.val, hP⟩ : Fin 50000) q := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 64 + 1 * q.val = q.val; omega
  -- where the embedding block's element sits
  have h2 : ((cfg1.win 2).blk t).view.emb (ix2 p q) = ix2 (⟨win1_3.index t (0 : Fin 2) * 5000 + p.val, hP⟩ : Fin 50000) q := by
    funext a; apply Fin.ext
    match a with
    | ⟨0, _⟩ => show win1_2.index t (0 : Fin 2) * 5000 + 1 * p.val = win1_3.index t (0 : Fin 2) * 5000 + p.val; omega
    | ⟨1, _⟩ => show win1_2.index t (1 : Fin 2) * 64 + 1 * q.val = q.val; omega
  -- where the feature block's elements sit
  have h0 : ∀ k : Fin 256, ((cfg1.win 0).blk t).view.emb (ix2 p k) = ix2 (⟨win1_3.index t (0 : Fin 2) * 5000 + p.val, hP⟩ : Fin 50000) k := by
    intro k; funext a; apply Fin.ext
    match a with
    | ⟨0, _⟩ => show win1_0.index t (0 : Fin 2) * 5000 + 1 * p.val = win1_3.index t (0 : Fin 2) * 5000 + p.val; omega
    | ⟨1, _⟩ => show win1_0.index t (1 : Fin 2) * 256 + 1 * k.val = k.val; omega
  -- the weights' block is the whole matrix
  have h1 : ∀ k : Fin 256, ((cfg1.win 1).blk t).view.emb (ix2 k q) = ix2 k q := by
    intro k; funext a; apply Fin.ext
    match a with
    | ⟨0, _⟩ => show win1_1.index t (0 : Fin 2) * 256 + 1 * k.val = k.val; omega
    | ⟨1, _⟩ => show win1_1.index t (1 : Fin 2) * 64 + 1 * q.val = q.val; omega
  show k1_pay1 (F := Ideal) (iblk1 V c 0 t) (iblk1 V c 1 t) (iblk1 V c 2 t) (ix2 p q)
      = Cert.Fuse.itemsOut (V c main_v89) (V c main_arg4) (V c main_v92) (((cfg1.win 3).blk t).view.emb (ix2 p q))
  rw [h3, Cert.Fuse.itemsOut_apply]
  refine (pay1_apply (iblk1 V c 0 t) (iblk1 V c 1 t) (iblk1 V c 2 t) p q).trans ?_
  refine Cert.Fuse.point_eq (V c main_v89) (V c main_arg4) (V c main_v92) (iblk1 V c 0 t) (iblk1 V c 1 t) (iblk1 V c 2 t)
    ⟨win1_3.index t (0 : Fin 2) * 5000 + p.val, hP⟩ p q ?_ ?_ ?_
  · show V c main_v89 (((cfg1.win 2).blk t).view.emb (ix2 p q)) = _
    rw [h2]
  · intro k
    show V c main_arg4 (((cfg1.win 0).blk t).view.emb (ix2 p k)) = _
    rw [h0 k]
  · intro k
    show V c main_v92 (((cfg1.win 1).blk t).view.emb (ix2 k q)) = _
    rw [h1 k]

/-- An index of the result array is in point `t`'s block iff each coordinate is in the block's range. -/
theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v93).slice (win1_3.rect t)).set ↔ _
  rw [View.set_slice_whole, Rect.mem_set_unit]
  exact Iff.rfl

/-- The blocks tile the rows: every index is in some point's block. -/
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the launch the result array is the projection of the arrays the launch found. -/
theorem final1 (c : Dev nD) :
    (dat1 V c).arrAt 3 cfg1.N = Cert.Fuse.itemsOut (V c main_v89) (V c main_arg4) (V c main_v92) :=
  (dat1 V c).arrAt_eq_of_cover 3 _ (fun t _ => flushed1_eq V c t) (cover1)

end Cert.KernelIdeal.Fuse

end
-- ==== Proof.Outputs.lean ====
/-
  What the two result buffers hold when the idealized kernel has run.

  Walk the fold of buffer contents backwards from its last stage. The items' result is one of the items' launch's
  arrays, so it holds what that launch's write-backs fold to: the projection of what that launch found, which is
  the items' rows as the host left them before the users' launch, the items' feature table, and the transposed
  items' weights. The users' result is not touched by the items' launch nor by the host operation before it, so it
  holds what the users' launch left: the projection of the users' rows, the users' feature table and the transposed
  users' weights.
-/
import proofs.«125943_j3539053052414_1_alg».proof.Proof.HostSide
import proofs.«125943_j3539053052414_1_alg».proof.Proof.UsersBlocks
import proofs.«125943_j3539053052414_1_alg».proof.Proof.ItemsBlocks

set_option maxRecDepth 16384

noncomputable section

namespace Cert.KernelIdeal.Fuse

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The users' result after the run. -/
theorem out_users (c : Dev nD) : W6 m ρ c (Proc.devRef .tc main_v91)
    = Cert.Fuse.usersOut (W3 m ρ c (Proc.devRef .tc main_v88)) (m ((c : Thread nD τ).loc main_arg3))
        (transpose S256x64 [1, 0] (m ((c : Thread nD τ).loc main_arg5)) transposes_S64x256_S256x64_1_0) := by
  rw [W6_of_ne m ρ c main_v91 (by decide)]
  have step : ∀ X : Valuation τ sig (Elt Ideal), StableHlo.after hostOps1 X (Proc.devRef .tc main_v91) = X (Proc.devRef .tc main_v91) := by
    intro X; after_results
  refine (step (W4 m ρ c)).trans ?_
  refine (W4_arr m ρ c 3).trans ?_
  rw [final0 (V3 m ρ) c]
  show Cert.Fuse.usersOut (W3 m ρ c (Proc.devRef .tc main_v88)) (W3 m ρ c (Proc.devRef .tc main_arg3)) (W3 m ρ c (Proc.devRef .tc main_v90)) = _
  rw [entry0_feat m ρ c, entry0_wT m ρ c]

/-- The items' result after the run. -/
theorem out_items (c : Dev nD) : W6 m ρ c (Proc.devRef .tc main_v93)
    = Cert.Fuse.itemsOut (W3 m ρ c (Proc.devRef .tc main_v89)) (m ((c : Thread nD τ).loc main_arg4))
        (transpose S256x64 [1, 0] (m ((c : Thread nD τ).loc main_arg6)) transposes_S64x256_S256x64_1_0) := by
  refine (W6_arr m ρ c 3).trans ?_
  rw [final1 (V5 m ρ) c]
  show Cert.Fuse.itemsOut (W5 m ρ c (Proc.devRef .tc main_v89)) (W5 m ρ c (Proc.devRef .tc main_arg4)) (W5 m ρ c (Proc.devRef .tc main_v92)) = _
  rw [entry1_emb m ρ c, entry1_feat m ρ c, entry1_wT m ρ c]

end Cert.KernelIdeal.Fuse

end
-- ==== Proof.Bridge.lean ====
/-
  The reference's results, in the idealized kernel's terms.

  The reference computes the propagated embedding by the same host operations, in the same order and with the same
  constants, as the idealized kernel's program does before its first launch; it then cuts out the users' rows and adds
  the users' feature table times the transposed users' weights, and the same for the items. When the two programs
  start from memories that agree on the arguments, the reference's cut of the propagated embedding is therefore what
  the kernel's host operations left in the buffer its launch reads the embedding rows from: composing the kernel's
  host operations, one after the other, gives the reference's own term. So each result of the reference is the
  projection (embedding rows plus features times transposed weights) of the kernel's embedding buffer and of the
  kernel's arguments.
-/
import proofs.«125943_j3539053052414_1_alg».proof.Proof.RefRunPatched
import proofs.«125943_j3539053052414_1_alg».proof.Proof.Gen.KernelIdeal.Frame
import proofs.«125943_j3539053052414_1_alg».proof.Proof.Spec
import Idealize.ShloMosaic.Lib.StableHlo.Run

set_option maxRecDepth 16384

noncomputable section

namespace Cert.Fuse

open Idealize.ShloMosaic Idealize.ShloMosaic.TcCoe Idealize.SL.Sem Idealize.ShloMosaic.StableHlo

/-- The users' embedding table on top of the items': the 150000 rows the propagation starts from. It is the host's
    concatenation of the two tables along the rows, under a name whose two arguments are plain arrays. -/
def stacked {α : Type} (a : Cert.KernelIdeal.S100000x64.Idx → α) (b : Cert.KernelIdeal.S50000x64.Idx → α) : Cert.KernelIdeal.S150000x64.Idx → α :=
  concatenate Cert.KernelIdeal.S150000x64 0 [⟨Cert.KernelIdeal.S100000x64, a⟩, ⟨Cert.KernelIdeal.S50000x64, b⟩] Cert.KernelIdeal.Gen.concatenates_S100000x64_S50000x64_S150000x64_d0

theorem stacked_def {α : Type} (a : Cert.KernelIdeal.S100000x64.Idx → α) (b : Cert.KernelIdeal.S50000x64.Idx → α)
    (h : Shape.Concatenates [Cert.KernelIdeal.S100000x64, Cert.KernelIdeal.S50000x64] Cert.KernelIdeal.S150000x64 0) :
    concatenate Cert.KernelIdeal.S150000x64 0 [⟨Cert.KernelIdeal.S100000x64, a⟩, ⟨Cert.KernelIdeal.S50000x64, b⟩] h = stacked a b := rfl

set_option maxHeartbeats 48000000 in
/-- The reference's users' result is the projection of the users' rows the idealized kernel's host operations
    left, the users' feature table and the transposed users' weights. -/
theorem ref_users
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.ValueP.res_main_v91 (F := Ideal) m' c
      = usersOut (Cert.KernelIdeal.Gen.W3 m ρ c (Proc.devRef .tc Cert.KernelIdeal.main_v88)) (m ((c.tc : Thread Cert.KernelIdeal.nD Cert.KernelIdeal.τ).loc Cert.KernelIdeal.main_arg3))
          (transpose Cert.KernelIdeal.S256x64 [1, 0] (m ((c.tc : Thread Cert.KernelIdeal.nD Cert.KernelIdeal.τ).loc Cert.KernelIdeal.main_arg5)) Cert.KernelIdeal.Gen.transposes_S64x256_S256x64_1_0) := by
  unfold Cert.ReferenceIdeal.ValueP.res_main_v91 usersOut
  rw [h0, h1, h2, h3, h5]
  refine congrArg₂ addf ?_ rfl
  symm
  show StableHlo.after Cert.KernelIdeal.Gen.hostOps0_2 (StableHlo.after Cert.KernelIdeal.Gen.hostOps0_1 (StableHlo.after Cert.KernelIdeal.Gen.hostOps0 (Cert.KernelIdeal.Gen.W0 m ρ c))) (Proc.devRef .tc Cert.KernelIdeal.main_v88) = _
  simp (disch := decide) only [after_cons, after_nil, stacked_def, TRef.toBuf, TRef.ofBuf, cast_eq,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  rfl

set_option maxHeartbeats 48000000 in
/-- The reference's items' result is the projection of the items' rows the idealized kernel's host operations
    left, the items' feature table and the transposed items' weights. -/
theorem ref_items
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.ValueP.res_main_v95 (F := Ideal) m' c
      = itemsOut (Cert.KernelIdeal.Gen.W3 m ρ c (Proc.devRef .tc Cert.KernelIdeal.main_v89)) (m ((c.tc : Thread Cert.KernelIdeal.nD Cert.KernelIdeal.τ).loc Cert.KernelIdeal.main_arg4))
          (transpose Cert.KernelIdeal.S256x64 [1, 0] (m ((c.tc : Thread Cert.KernelIdeal.nD Cert.KernelIdeal.τ).loc Cert.KernelIdeal.main_arg6)) Cert.KernelIdeal.Gen.transposes_S64x256_S256x64_1_0) := by
  unfold Cert.ReferenceIdeal.ValueP.res_main_v95 itemsOut
  rw [h0, h1, h2, h4, h6]
  refine congrArg₂ addf ?_ rfl
  symm
  show StableHlo.after Cert.KernelIdeal.Gen.hostOps0_2 (StableHlo.after Cert.KernelIdeal.Gen.hostOps0_1 (StableHlo.after Cert.KernelIdeal.Gen.hostOps0 (Cert.KernelIdeal.Gen.W0 m ρ c))) (Proc.devRef .tc Cert.KernelIdeal.main_v89) = _
  simp (disch := decide) only [after_cons, after_nil, stacked_def, TRef.toBuf, TRef.ofBuf, cast_eq,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  rfl

end Cert.Fuse

end
-- ==== Proof.lean ====
/-
  Equivalence, over the extended reals, of a graph-embedding kernel and its reference.

  Both programs take an edge list, the users' and items' embedding tables, the users' and items' feature tables and
  two weight matrices. Both first compute the propagated embedding of all 150000 nodes on the host: degrees by a
  scatter-add of ones, the symmetric normalisation 1 / sqrt(deg) (zero where the degree is zero), four rounds of
  gather - scale - scatter-add over the edges, the sum of the five layers divided by 25. They then return, for the
  users and for the items,

      (rows of the propagated embedding) + (feature table) * (weights, transposed).

  The reference does this last step with one general dot product and one addition per result. The kernel does it in
  two launches of one body over blocks of 5000 rows: each grid point multiplies its block of the feature table with
  the transposed weights, after a change of float format, into a zero accumulator and adds its block of the
  embedding rows.

  On the extended reals the change of format is the identity and the accumulated product is the plain sum over the
  contracted coordinate, so each grid point writes back exactly its block of the reference's result; the blocks tile
  the rows. The host part is the same sequence of operations in both programs, so it needs no algebra at all: the
  embedding rows the launches read are, term for term, the rows the reference adds to. No law is used that needs the
  inputs to be finite, and the precondition is never opened.

  The modules: `Payload` (one grid point at an index), `Spec` (the projection as an array and at an index),
  `UsersBlocks` / `ItemsBlocks` (from the blocks to the whole result of each launch), `HostSide` (what each launch
  finds in its operands), `Run` (the run, with the two results named), `Outputs` (what the results hold),
  `Bridge` (the reference's results in the kernel's terms). The ideal pass rewrote nothing, so the kernel's
  idealization is the program's own text and that conjunct is trivial.
-/
import proofs.«125943_j3539053052414_1_alg».proof.Defs
import proofs.«125943_j3539053052414_1_alg».proof.Proof.Gen.Kernel
import proofs.«125943_j3539053052414_1_alg».proof.Proof.Gen.Kernel.Skeleton
import proofs.«125943_j3539053052414_1_alg».proof.Proof.Gen.Kernel.Launch
import proofs.«125943_j3539053052414_1_alg».proof.Proof.Gen.Kernel.Points
import proofs.«125943_j3539053052414_1_alg».proof.Proof.Gen.Kernel.Frame
import proofs.«125943_j3539053052414_1_alg».proof.Proof.Gen.KernelIdeal
import proofs.«125943_j3539053052414_1_alg».proof.Proof.Gen.KernelIdeal.Skeleton
import proofs.«125943_j3539053052414_1_alg».proof.Proof.Gen.KernelIdeal.Launch
import proofs.«125943_j3539053052414_1_alg».proof.Proof.Gen.KernelIdeal.Points
import proofs.«125943_j3539053052414_1_alg».proof.Proof.Gen.KernelIdeal.Frame
import proofs.«125943_j3539053052414_1_alg».proof.Proof.Gen.ReferenceIdeal
import proofs.«125943_j3539053052414_1_alg».proof.Proof.Gen.Pre_finite_inputs
import proofs.«125943_j3539053052414_1_alg».proof.Proof.RefRunPatched
import proofs.«125943_j3539053052414_1_alg».proof.Proof.Run
import proofs.«125943_j3539053052414_1_alg».proof.Proof.Outputs
import proofs.«125943_j3539053052414_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- From memories agreeing on the arguments both programs end with the users' result at the users' projection and
    the items' result at the items' projection of one and the same embedding buffer and arguments. -/
theorem algebraic : Cert.algebraic_KernelIdeal_ReferenceIdeal := by
  intro m ρ m' ρ' _ hagree
  refine ⟨fun c => Cert.Fuse.usersOut (Cert.KernelIdeal.Gen.W3 m ρ c (Proc.devRef .tc Cert.KernelIdeal.main_v88)) (m ((c.tc : Thread Cert.KernelIdeal.nD Cert.KernelIdeal.τ).loc Cert.KernelIdeal.main_arg3))
            (transpose Cert.KernelIdeal.S256x64 [1, 0] (m ((c.tc : Thread Cert.KernelIdeal.nD Cert.KernelIdeal.τ).loc Cert.KernelIdeal.main_arg5)) Cert.KernelIdeal.Gen.transposes_S64x256_S256x64_1_0),
          fun c => Cert.Fuse.itemsOut (Cert.KernelIdeal.Gen.W3 m ρ c (Proc.devRef .tc Cert.KernelIdeal.main_v89)) (m ((c.tc : Thread Cert.KernelIdeal.nD Cert.KernelIdeal.τ).loc Cert.KernelIdeal.main_arg4))
            (transpose Cert.KernelIdeal.S256x64 [1, 0] (m ((c.tc : Thread Cert.KernelIdeal.nD Cert.KernelIdeal.τ).loc Cert.KernelIdeal.main_arg6)) Cert.KernelIdeal.Gen.transposes_S64x256_S256x64_1_0), ?_, ?_⟩
  · exact (θ_run Cert.KernelIdeal.defs _ _).mono
      (fun _ h c => ⟨(h c).1.trans (Cert.KernelIdeal.Fuse.out_users m ρ c), (h c).2.1.trans (Cert.KernelIdeal.Fuse.out_items m ρ c), (h c).2.2⟩)
      (Cert.KernelIdeal.Fuse.run_outputs (F := Ideal) m ρ)
  · refine (θ_run Cert.ReferenceIdeal.defs _ _).mono (fun _ h c => ?_) (Cert.ReferenceIdeal.ValueP.run (F := Ideal) m' ρ')
    obtain ⟨a0, a1, a2, a3, a4, a5, a6⟩ := hagree c
    exact ⟨(h c).1.trans (Cert.Fuse.ref_users m ρ m' c a0 a1 a2 a3 a5),
           (h c).2.1.trans (Cert.Fuse.ref_items m ρ m' c a0 a1 a2 a4 a6), (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
